-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S_ : Shape := ⟨0, ![]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 25
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8192x4096, .f32⟩
  | .hbm, ⟨3, _⟩ => ⟨S4096x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S_, .f32⟩
  | .hbm, ⟨13, _⟩ => ⟨S4096x4096, .f32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .bf16⟩
  | .hbm, ⟨23, _⟩ => ⟨S8192x4096, .f32⟩
  | .hbm, ⟨24, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S2048x512, .bf16⟩
  | .local _ .vmem, ⟨3, _⟩ => ⟨S2048x512, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_call0_v0 : Ref sig .tc := ⟨.hbm, 18, rfl⟩
abbrev main_v12 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4x2048x4096_S8192x4096 : S4x2048x4096.ShapeCasts S8192x4096
  reducesTo_S4096x4096_S_d0_1 : S4096x4096.ReducesTo [0, 1] S_
  h_S_ : 0 < S_.numel
  bcast_S_S4096x4096 : S_.BroadcastsInDim S4096x4096 (![] : Fin 0 → Fin S4096x4096.rank)
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S8192x4096_S4x2048x4096 : S8192x4096.ShapeCasts S4x2048x4096
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x4096.size a
  hwx0_2 : ∀ i : grid0.Coords, EltTy.bits .f32 = 32 ∨ (Rect.block (s := S8192x4096) S1024x2048.size (cc0_transform_2 i) (hinb0_2 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_call0_v0 : Ref sig .tc := ⟨.hbm, 17, rfl⟩
abbrev main_v11 : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one grid point leaves behind, as a value. The body keeps a running [1024, 2048] accumulator in a scratch
  buffer: at the first step of a contraction run it stores the zero block and then adds that step's partial
  product; at every later step it adds the step's partial product to what the step before left; at the last
  step it also copies the accumulator into the output block. Each of these is one whole-buffer store, so what
  the buffer holds afterwards is that store's payload, with every load reading the whole buffer it names.
-/
import proofs.«167173_j36283883716713_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer rectangle, as the constant function. -/
theorem hz : (![0, 0] : Fin 2 → Nat) = fun _ => 0 := funext fun a => by fin_cases a <;> rfl

/-- First step of a run: the accumulator is zeroed, read back, and left at `0 + (this step's product)`. -/
theorem scratch_first (c : Dev nD) (i : grid0.Coords) (a3 : Memref sig .tc .vmem S1024x512 .f32) (h3 : a3.IsWhole)
    (a4 : Memref sig .tc .vmem S2048x512 .bf16) (h4 : a4.IsWhole) (a5 : Memref sig .tc .vmem S1024x2048 .f32) (h5 : a5.IsWhole)
    (a6 : Memref sig .tc .vmem S1024x2048 .f32) (h6 : a6.IsWhole) (hc0 : cond0_0 i) (hc1 : ¬cond0_1 i)
    (x0 : Vec F S1024x512 .f32) (x1 : Vec F S2048x512 .bf16) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x2048) hz, View.readCov_unit_zero (S := S1024x2048) _ hz]
  simp only [View.readAt_eq_ld, h3.read_unread, h4.read_unread, h6.read_unread, View.ld_unit_zero (S := S1024x512) hz,
    View.ld_unit_zero (S := S2048x512) hz, View.ld_unit_zero (S := S1024x2048) hz]

/-- A middle step: the accumulator `xs0` the step before left becomes `xs0 + (this step's product)`. -/
theorem scratch_mid (c : Dev nD) (i : grid0.Coords) (a3 : Memref sig .tc .vmem S1024x512 .f32) (h3 : a3.IsWhole)
    (a4 : Memref sig .tc .vmem S2048x512 .bf16) (h4 : a4.IsWhole) (a5 : Memref sig .tc .vmem S1024x2048 .f32) (h5 : a5.IsWhole)
    (a6 : Memref sig .tc .vmem S1024x2048 .f32) (h6 : a6.IsWhole) (hc0 : ¬cond0_0 i) (hc1 : ¬cond0_1 i)
    (x0 : Vec F S1024x512 .f32) (x1 : Vec F S2048x512 .bf16) (xs0 : Vec F S1024x2048 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S1024x512) hz,
    View.ld_unit_zero (S := S2048x512) hz, View.ld_unit_zero (S := S1024x2048) hz]

/-- The last step updates the accumulator in the same way, -/
theorem scratch_last (c : Dev nD) (i : grid0.Coords) (a3 : Memref sig .tc .vmem S1024x512 .f32) (h3 : a3.IsWhole)
    (a4 : Memref sig .tc .vmem S2048x512 .bf16) (h4 : a4.IsWhole) (a5 : Memref sig .tc .vmem S1024x2048 .f32) (h5 : a5.IsWhole)
    (a6 : Memref sig .tc .vmem S1024x2048 .f32) (h6 : a6.IsWhole) (hc0 : ¬cond0_0 i) (hc1 : cond0_1 i)
    (x0 : Vec F S1024x512 .f32) (x1 : Vec F S2048x512 .bf16) (xs0 : Vec F S1024x2048 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x512) hz,
    View.ld_unit_zero (S := S2048x512) hz, View.ld_unit_zero (S := S1024x2048) hz]

/-- and the output block it then stores is the updated accumulator, read back whole. -/
theorem out_last (c : Dev nD) (i : grid0.Coords) (a3 : Memref sig .tc .vmem S1024x512 .f32) (h3 : a3.IsWhole)
    (a4 : Memref sig .tc .vmem S2048x512 .bf16) (h4 : a4.IsWhole) (a5 : Memref sig .tc .vmem S1024x2048 .f32) (h5 : a5.IsWhole)
    (a6 : Memref sig .tc .vmem S1024x2048 .f32) (h6 : a6.IsWhole) (hc0 : ¬cond0_0 i) (hc1 : cond0_1 i)
    (x0 : Vec F S1024x512 .f32) (x1 : Vec F S2048x512 .bf16) (xs0 : Vec F S1024x2048 .f32) :
    out0_C_2 c i a3 h3 a4 h4 a5 h5 a6 h6 hc0 hc1 x0 x1 xs0 = k0_pay2 x0 x1 xs0 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz, View.readCov_unit_zero (S := S1024x2048) _ hz]
  simp only [View.readAt_eq_ld, h3.read_unread, h4.read_unread, h6.read_unread, View.ld_unit_zero (S := S1024x512) hz,
    View.ld_unit_zero (S := S2048x512) hz, View.ld_unit_zero (S := S1024x2048) hz]

end Cert.KernelIdeal.Pieces

end
-- ==== Proof.Payload.lean ====
/-
  One step's arithmetic at an entry, over the extended reals. With the two loaded blocks `a` [1024, 512] and
  `b` [2048, 512] and the accumulator `s` [1024, 2048], the step leaves at (r, c)
      s (r, c) + ∑ k < 512, a (r, k) · b (c, k):
  the change of float format of `a` is the identity here, the matrix unit's own accumulator is the zero block,
  and its contraction pairs the last axis of both operands.
-/
import proofs.«167173_j36283883716713_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Payload

open Cert.KernelIdeal Cert.KernelIdeal.Gen Idealize.ShloMosaic.ValueIdx

/-- The left operand's index of the contraction at output entry `y` and contraction position `q`: (row of `y`, `q`). -/
theorem lhs_row (y : S1024x2048.Idx) (q : dot_S1024x512_S2048x512_S1024x2048_1_1_0_0_n_n.contr.Idx) :
    (dot_S1024x512_S2048x512_S1024x2048_1_1_0_0_n_n.lhsIdx y q 0).val = (y 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
theorem lhs_k (y : S1024x2048.Idx) (q : dot_S1024x512_S2048x512_S1024x2048_1_1_0_0_n_n.contr.Idx) :
    (dot_S1024x512_S2048x512_S1024x2048_1_1_0_0_n_n.lhsIdx y q 1).val = (q ⟨0, by decide⟩).val :=
  dot_S1024x512_S2048x512_S1024x2048_1_1_0_0_n_n.lhsIdx_val_of_single rfl y q
/-- The right operand's: (column of `y`, `q`). -/
theorem rhs_col (y : S1024x2048.Idx) (q : dot_S1024x512_S2048x512_S1024x2048_1_1_0_0_n_n.contr.Idx) :
    (dot_S1024x512_S2048x512_S1024x2048_1_1_0_0_n_n.rhsIdx y q 0).val = (y 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
theorem rhs_k (y : S1024x2048.Idx) (q : dot_S1024x512_S2048x512_S1024x2048_1_1_0_0_n_n.contr.Idx) :
    (dot_S1024x512_S2048x512_S1024x2048_1_1_0_0_n_n.rhsIdx y q 1).val = (q ⟨0, by decide⟩).val :=
  dot_S1024x512_S2048x512_S1024x2048_1_1_0_0_n_n.rhsIdx_val_of_single rfl y q

/-- The zero block the first step stores is zero at every entry. -/
theorem zero_apply (y : S1024x2048.Idx) : k0_pay1 (F := Ideal) y = 0 := by
  unfold k0_pay1
  simp only [shapeCast_self]
  exact Ideal.ofBits_zero_f32

/-- One step at an entry: the accumulator there plus the 512-term partial product of the two blocks' rows. -/
theorem step_apply (a : Vec Ideal S1024x512 .f32) (b : Vec Ideal S2048x512 .bf16) (s : Vec Ideal S1024x2048 .f32)
    (y : S1024x2048.Idx) :
    k0_pay2 (F := Ideal) a b s y = s y + ∑ k : Fin 512, a (ix2 (y 0) k) * b (ix2 (y 1) k) := by
  unfold k0_pay2
  simp only [shapeCast_self]
  rw [addf_apply]
  refine congrArg (s y + ·) ?_
  refine (Ideal.matmul_constant_zero_apply (φ₁ := .bf16) (φ₂ := .bf16) dot_S1024x512_S2048x512_S1024x2048_1_1_0_0_n_n none (truncf .bf16 a bitsLt_bf16_f32) b y).trans ?_
  rw [← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx y ((contrEquiv1 dot_S1024x512_S2048x512_S1024x2048_1_1_0_0_n_n 512 rfl rfl).symm k) = ix2 (y 0) k := funext fun d => Fin.ext (by
    match d with
    | ⟨0, _⟩ => exact lhs_row _ _
    | ⟨1, _⟩ => exact (lhs_k _ _).trans hk)
  have er : dot_S1024x512_S2048x512_S1024x2048_1_1_0_0_n_n.rhsIdx y ((contrEquiv1 dot_S1024x512_S2048x512_S1024x2048_1_1_0_0_n_n 512 rfl rfl).symm k) = ix2 (y 1) k := funext fun d => Fin.ext (by
    match d with
    | ⟨0, _⟩ => exact rhs_col _ _
    | ⟨1, _⟩ => exact (rhs_k _ _).trans hk)
  rw [el, er]
  rfl

end Cert.KernelIdeal.Payload

end
-- ==== Proof.Spec.lean ====
/-
  The arithmetic the two programs share, free of either program. Both compute, for a row `R` of an
  [8192, 4096] array `X` and a row `C` of a [4096, 4096] array `W`, the contraction
      ∑ k < 4096, X (R, k) · W (C, k).
  One of them takes the 4096 terms in eight consecutive runs of 512, adding each run's partial sum to a running
  total that starts at zero. Addition of extended reals is commutative and associative (the infinities
  included), so regrouping a finite sum into consecutive runs changes nothing: no finiteness is needed.
  Row and column numbers are taken as natural numbers reduced modulo the extents, so that every term below is
  defined for all naturals; they are only ever used inside the extents.
-/
import Idealize.ShloMosaic.PureOps.Ideal
import Idealize.ShloMosaic.Lib.ValueIdx

noncomputable section

namespace Cert.Spec

open Idealize.ShloMosaic Idealize.ShloMosaic.ValueIdx

/-- The shapes of the two operands of the contraction. -/
abbrev SX : Shape := ⟨2, ![8192, 4096]⟩
abbrev SW : Shape := ⟨2, ![4096, 4096]⟩

/-- A natural number as a row of `X`, as a row of `W`, and as a position along the contracted axis. -/
abbrev rowX (R : ℕ) : Fin 8192 := ⟨R % 8192, Nat.mod_lt _ (by norm_num)⟩
abbrev rowW (C : ℕ) : Fin 4096 := ⟨C % 4096, Nat.mod_lt _ (by norm_num)⟩
abbrev pos (K : ℕ) : Fin 4096 := ⟨K % 4096, Nat.mod_lt _ (by norm_num)⟩

/-- The partial sum over the `s`-th run of 512 positions: positions `512 s … 512 s + 511`. -/
def part (X : SX.Idx → EReal) (W : SW.Idx → EReal) (R C s : ℕ) : EReal :=
  ∑ kk : Fin 512, X (ix2 (rowX R) (pos (512 * s + kk.val))) * W (ix2 (rowW C) (pos (512 * s + kk.val)))

/-- The whole contraction. -/
def full (X : SX.Idx → EReal) (W : SW.Idx → EReal) (R C : ℕ) : EReal :=
  ∑ k : Fin 4096, X (ix2 (rowX R) k) * W (ix2 (rowW C) k)

/-- A sum over 4096 positions is the sum over the eight runs of the sums over each run's 512 positions:
    position `k` is the `k % 512`-th of run `k / 512`. -/
theorem sum_runs (f : Fin 4096 → EReal) :
    ∑ k : Fin 4096, f k = ∑ s ∈ Finset.range 8, ∑ kk : Fin 512, f (pos (512 * s + kk.val)) := by
  have e : ∀ g : Fin (8 * 512) → EReal, ∑ k, g k = ∑ s : Fin 8, ∑ kk : Fin 512, g (finProdFinEquiv (s, kk)) := fun g => by
    rw [← Equiv.sum_comp finProdFinEquiv g, Fintype.sum_prod_type]
  rw [Finset.sum_range]
  refine (e f).trans (Finset.sum_congr rfl fun s _ => Finset.sum_congr rfl fun kk _ => congrArg f (Fin.ext ?_))
  show kk.val + 512 * s.val = (512 * s.val + kk.val) % 4096
  have := s.isLt
  have := kk.isLt
  omega

/-- Zero plus the eight partial sums is the whole contraction. -/
theorem parts_eq_full (X : SX.Idx → EReal) (W : SW.Idx → EReal) (R C : ℕ) :
    0 + ∑ s ∈ Finset.range 8, part X W R C s = full X W R C := by
  rw [zero_add]
  unfold part full
  exact (sum_runs fun k => X (ix2 (rowX R) k) * W (ix2 (rowW C) k)).symm

end Cert.Spec

end
-- ==== Proof.Blocks.lean ====
/-
  Where a block sits in its array. The grid has 8 × 2 × 8 points, numbered row-major: point `t` is row block
  `t / 16`, column block `(t / 8) % 2` and contraction step `t % 8`. At point `t` the first operand's block is
  rows `1024 (t / 16) …` and positions `512 (t % 8) …` of the [8192, 4096] array; the second operand's block is
  rows `2048 ((t / 8) % 2) …` and the same positions of the [4096, 4096] array; the output block is rows
  `1024 (t / 16) …` and columns `2048 ((t / 8) % 2) …` of the [8192, 4096] result. An entry of a block is the
  array's entry at block index × block size + the coordinate inside the block, axis by axis.
-/
import proofs.«167173_j36283883716713_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The block indices of the three windows at every grid point, decided over the 128 points. -/
theorem index_lhs : ∀ t : Fin cfg0.N, win0_0.index t (0 : Fin 2) = t.val / 16 ∧ win0_0.index t (1 : Fin 2) = t.val % 8 :=
  (by decide +kernel : ∀ t : Fin grid0.N, win0_0.index t (0 : Fin 2) = t.val / 16 ∧ win0_0.index t (1 : Fin 2) = t.val % 8)
theorem index_rhs : ∀ t : Fin cfg0.N, win0_1.index t (0 : Fin 2) = t.val / 8 % 2 ∧ win0_1.index t (1 : Fin 2) = t.val % 8 :=
  (by decide +kernel : ∀ t : Fin grid0.N, win0_1.index t (0 : Fin 2) = t.val / 8 % 2 ∧ win0_1.index t (1 : Fin 2) = t.val % 8)
theorem index_out : ∀ t : Fin cfg0.N, win0_2.index t (0 : Fin 2) = t.val / 16 ∧ win0_2.index t (1 : Fin 2) = t.val / 8 % 2 :=
  (by decide +kernel : ∀ t : Fin grid0.N, win0_2.index t (0 : Fin 2) = t.val / 16 ∧ win0_2.index t (1 : Fin 2) = t.val / 8 % 2)

/-- An entry of the first operand's block at point `t` is the array's entry at the block's offset plus the
    coordinate inside the block. -/
theorem lhs_block_apply (c : Dev nD) (t : Fin cfg0.N) (y : S1024x512.Idx) (i : S8192x4096.Idx)
    (h0 : (i 0).val = 1024 * (t.val / 16) + (y 0).val) (h1 : (i 1).val = 512 * (t.val % 8) + (y 1).val) :
    (iblk m c 0 t : Vec F S1024x512 .f32) y = V m c main_v0 i := by
  unfold iblk
  rw [View.read_apply]
  show V m c main_v0 _ = V m c main_v0 i
  refine congrArg (V m c main_v0) (funext fun a => Fin.ext ?_)
  match a with
  | ⟨0, _⟩ => show win0_0.index t 0 * 1024 + 1 * (y 0).val = (i 0).val; rw [(index_lhs t).1, h0]; omega
  | ⟨1, _⟩ => show win0_0.index t 1 * 512 + 1 * (y 1).val = (i 1).val; rw [(index_lhs t).2, h1]; omega

/-- The same for the second operand's block. -/
theorem rhs_block_apply (c : Dev nD) (t : Fin cfg0.N) (y : S2048x512.Idx) (i : S4096x4096.Idx)
    (h0 : (i 0).val = 2048 * (t.val / 8 % 2) + (y 0).val) (h1 : (i 1).val = 512 * (t.val % 8) + (y 1).val) :
    (iblk m c 1 t : Vec F S2048x512 .bf16) y = V m c main_v14 i := by
  unfold iblk
  rw [View.read_apply]
  show V m c main_v14 _ = V m c main_v14 i
  refine congrArg (V m c main_v14) (funext fun a => Fin.ext ?_)
  match a with
  | ⟨0, _⟩ => show win0_1.index t 0 * 2048 + 1 * (y 0).val = (i 0).val; rw [(index_rhs t).1, h0]; omega
  | ⟨1, _⟩ => show win0_1.index t 1 * 512 + 1 * (y 1).val = (i 1).val; rw [(index_rhs t).2, h1]; omega

end Cert.KernelIdeal.Blocks

end
-- ==== Proof.Accum.lean ====
/-
  The accumulator after each grid point, entry by entry. Within a run of eight consecutive points (one output
  block, contraction steps 0 … 7) the accumulator starts at zero and each step adds its 512-term partial sum;
  so after step `t % 8` of the run, entry (r, c) of the accumulator is zero plus the partial sums of steps
  0 … `t % 8` for row `1024 (t / 16) + r` of the first array and row `2048 ((t / 8) % 2) + c` of the second.
  The proof is an induction on the point: the first step of a run starts afresh, every other step adds to what
  the point before left (which belongs to the same run, so its row and column are the same).
-/
import proofs.«167173_j36283883716713_2_alg».proof.Proof.Pieces
import proofs.«167173_j36283883716713_2_alg».proof.Proof.Payload
import proofs.«167173_j36283883716713_2_alg».proof.Proof.Spec
import proofs.«167173_j36283883716713_2_alg».proof.Proof.Blocks

noncomputable section

open Idealize.ShloMosaic Idealize.ShloMosaic.TcCoe Idealize.SL.Sem
open Idealize.ShloMosaic.Pipeline (Dat)

namespace Cert.KernelIdeal.Accum

open Cert.KernelIdeal Cert.KernelIdeal.Gen Idealize.ShloMosaic.ValueIdx Cert.Spec

variable (m : (ℓ : Loc nD τ sig) → Buf (Elt Ideal) ℓ)

/-- The two operand arrays as the region finds them: the reshaped activations and the quantized weights. -/
abbrev lhs (c : Dev nD) : SX.Idx → EReal := V m c main_v0
abbrev rhs (c : Dev nD) : SW.Idx → EReal := V m c main_v14

/-- The row of the first array and the row of the second that entry `y` of point `n`'s output block pairs. -/
abbrev rowOf (n : ℕ) (y : S1024x2048.Idx) : ℕ := 1024 * (n / 16) + (y 0).val
abbrev colOf (n : ℕ) (y : S1024x2048.Idx) : ℕ := 2048 * (n / 8 % 2) + (y 1).val

/-- The two operand blocks point `t` is handed. -/
abbrev lhsBlock (c : Dev nD) (t : Fin cfg0.N) : Vec Ideal S1024x512 .f32 := iblk m c 0 t
abbrev rhsBlock (c : Dev nD) (t : Fin cfg0.N) : Vec Ideal S2048x512 .bf16 := iblk m c 1 t

/-- The product of point `t`'s two blocks at entry `y` is the `t % 8`-th partial sum of that entry's contraction. -/
theorem block_product (c : Dev nD) (t : Fin cfg0.N) (y : S1024x2048.Idx) :
    ∑ kk : Fin 512, lhsBlock m c t (ix2 (y 0) kk) * rhsBlock m c t (ix2 (y 1) kk)
      = part (lhs m c) (rhs m c) (rowOf t.val y) (colOf t.val y) (t.val % 8) := by
  have hN : t.val < 128 := lt_of_lt_of_eq t.isLt (show cfg0.N = 128 from N_0)
  have hy0 : (y 0).val < 1024 := (y 0).isLt
  have hy1 : (y 1).val < 2048 := (y 1).isLt
  unfold part
  refine Finset.sum_congr rfl fun kk _ => ?_
  have hk : kk.val < 512 := kk.isLt
  refine congrArg₂ (· * ·)
    (Blocks.lhs_block_apply m c t (ix2 (y 0) kk) (ix2 (rowX (rowOf t.val y)) (pos (512 * (t.val % 8) + kk.val))) ?_ ?_)
    (Blocks.rhs_block_apply m c t (ix2 (y 1) kk) (ix2 (rowW (colOf t.val y)) (pos (512 * (t.val % 8) + kk.val))) ?_ ?_)
  · show (1024 * (t.val / 16) + (y 0).val) % 8192 = 1024 * (t.val / 16) + (y 0).val
    omega
  · show (512 * (t.val % 8) + kk.val) % 4096 = 512 * (t.val % 8) + kk.val
    omega
  · show (2048 * (t.val / 8 % 2) + (y 1).val) % 4096 = 2048 * (t.val / 8 % 2) + (y 1).val
    omega
  · show (512 * (t.val % 8) + kk.val) % 4096 = 512 * (t.val % 8) + kk.val
    omega

/-- The first step of a run leaves zero plus its own partial sum. -/
theorem first_step (c : Dev nD) (t : Fin cfg0.N) (h0 : t.val % 8 = 0) (y : S1024x2048.Idx) :
    (outsAt0 m c t.val t.isLt).2 y = 0 + part (lhs m c) (rhs m c) (rowOf t.val y) (colOf t.val y) (t.val % 8) := by
  have h1 : ¬t.val % 8 = 7 := by omega
  rw [outsAt0_A m c t h0 h1]
  dsimp only
  rw [Pieces.scratch_first c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)]
  rw [Payload.step_apply, Payload.zero_apply]
  exact congrArg (0 + ·) (block_product m c t y)

/-- Every other step adds its partial sum to what the point before left. -/
theorem later_step (c : Dev nD) (t : Fin cfg0.N) (h0 : ¬t.val % 8 = 0) (y : S1024x2048.Idx) :
    (outsAt0 m c t.val t.isLt).2 y
      = (outsAt0 m c (t.val - 1) (Nat.lt_of_le_of_lt (Nat.sub_le _ _) t.isLt)).2 y
        + part (lhs m c) (rhs m c) (rowOf t.val y) (colOf t.val y) (t.val % 8) := by
  by_cases h1 : t.val % 8 = 7
  · rw [outsAt0_C m c t h0 h1]
    dsimp only
    rw [Pieces.scratch_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2]
    rw [Payload.step_apply]
    exact congrArg (_ + ·) (block_product m c t y)
  · rw [outsAt0_B m c t h0 h1]
    dsimp only
    rw [Pieces.scratch_mid c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2]
    rw [Payload.step_apply]
    exact congrArg (_ + ·) (block_product m c t y)

/-- After point `n`: zero plus the partial sums of steps 0 … `n % 8` of the entry's contraction. -/
theorem scratch_eq (c : Dev nD) : ∀ (n : ℕ) (h : n < cfg0.N) (y : S1024x2048.Idx),
    (outsAt0 m c n h).2 y
      = 0 + ∑ s ∈ Finset.range (n % 8 + 1), part (lhs m c) (rhs m c) (rowOf n y) (colOf n y) s
  | 0, h, y => by
    rw [first_step m c ⟨0, h⟩ rfl y]
    show 0 + part _ _ _ _ (0 % 8) = 0 + ∑ s ∈ Finset.range (0 % 8 + 1), _
    rw [Nat.zero_mod, Finset.sum_range_one]
  | n + 1, h, y => by
    by_cases h0 : (n + 1) % 8 = 0
    · rw [first_step m c ⟨n + 1, h⟩ h0 y]
      show 0 + part _ _ _ _ ((n + 1) % 8) = _
      rw [h0, Finset.sum_range_one]
    · rw [later_step m c ⟨n + 1, h⟩ h0 y]
      show (outsAt0 m c n _).2 y + part _ _ (rowOf (n + 1) y) (colOf (n + 1) y) ((n + 1) % 8) = _
      rw [scratch_eq c n (Nat.lt_of_succ_lt h) y]
      have e8 : (n + 1) % 8 = n % 8 + 1 := by omega
      have er : rowOf (n + 1) y = rowOf n y := by show 1024 * ((n + 1) / 16) + _ = 1024 * (n / 16) + _; omega
      have ec : colOf (n + 1) y = colOf n y := by show 2048 * ((n + 1) / 8 % 2) + _ = 2048 * (n / 8 % 2) + _; omega
      rw [e8, er, ec, Finset.sum_range_succ _ (n % 8 + 1), add_assoc]

end Cert.KernelIdeal.Accum

end
-- ==== Proof.Region.lean ====
/-
  The region's result array. Only the last step of each run of eight points writes its output block back, and
  what it writes is the finished accumulator: at entry (r, c) the whole 4096-term contraction of row
  `1024 (t / 16) + r` of the first array with row `2048 ((t / 8) % 2) + c` of the second. These 16 blocks tile the
  [8192, 4096] result (entry (R, C) lies in the block of the point with row block `R / 1024`, column block
  `C / 2048` and step 7), and each is the restriction of ONE function of the whole arrays, so the result array
  ends holding that function: entry (R, C) is the contraction of row `R` with row `C`.
-/
import proofs.«167173_j36283883716713_2_alg».proof.Proof.Accum

noncomputable section

open Idealize.ShloMosaic Idealize.ShloMosaic.TcCoe Idealize.SL.Sem
open Idealize.ShloMosaic.Pipeline (Dat)

namespace Cert.KernelIdeal.Region

open Cert.KernelIdeal Cert.KernelIdeal.Gen Idealize.ShloMosaic.ValueIdx Cert.Spec Cert.KernelIdeal.Accum

variable (m : (ℓ : Loc nD τ sig) → Buf (Elt Ideal) ℓ)

/-- The result as one function of the two operand arrays. -/
abbrev result (c : Dev nD) : S8192x4096.Idx → EReal := fun i => full (lhs m c) (rhs m c) (i 0).val (i 1).val

/-- At the last step of a run the output block is the finished accumulator: the whole contraction at each entry. -/
theorem out_block_apply (c : Dev nD) (t : Fin cfg0.N) (h7 : t.val % 8 = 7) (y : S1024x2048.Idx) :
    (outsAt0 m c t.val t.isLt).1 y = full (lhs m c) (rhs m c) (rowOf t.val y) (colOf t.val y) := by
  have h0 : ¬t.val % 8 = 0 := by omega
  have e : (outsAt0 m c t.val t.isLt).1 = (outsAt0 m c t.val t.isLt).2 := by
    rw [outsAt0_C m c t h0 h7]
    dsimp only
    rw [Pieces.out_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t)
        (outsAt0 m c (t.val - 1) (Nat.lt_of_le_of_lt (Nat.sub_le _ _) t.isLt)).2,
      Pieces.scratch_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t)
        (outsAt0 m c (t.val - 1) (Nat.lt_of_le_of_lt (Nat.sub_le _ _) t.isLt)).2]
  rw [e, scratch_eq m c t.val t.isLt y, h7]
  exact parts_eq_full _ _ _ _

/-- What a writing point writes back is its block of `result`. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  show (cfg0.win 2).cut (grid0.coords t) ((dats m 0 c).after 2 t) = _
  rw [after0_2]
  funext y
  rw [View.read_apply]
  show (outsAt0 m c t.val t.isLt).1 y = result m c (((cfg0.win 2).blk t).view.emb y)
  rw [out_block_apply m c t h7 y]
  show full _ _ (rowOf t.val y) (colOf t.val y)
    = full _ _ ((((cfg0.win 2).blk t).view.emb y) 0).val ((((cfg0.win 2).blk t).view.emb y) 1).val
  have e0 : ((((cfg0.win 2).blk t).view.emb y) 0).val = rowOf t.val y := by
    show win0_2.index t (0 : Fin 2) * 1024 + 1 * (y 0).val = 1024 * (t.val / 16) + (y 0).val
    rw [(Blocks.index_out t).1]; omega
  have e1 : ((((cfg0.win 2).blk t).view.emb y) 1).val = colOf t.val y := by
    show win0_2.index t (1 : Fin 2) * 2048 + 1 * (y 1).val = 2048 * (t.val / 8 % 2) + (y 1).val
    rw [(Blocks.index_out t).2]; omega
  rw [e0, e1]

/-- An index of the result array is in point `t`'s block iff each coordinate is in the block's range on its axis. -/
theorem mem_block (t : Fin cfg0.N) (i : S8192x4096.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v15).slice (win0_2.rect t)).set ↔ _
  rw [View.set_slice_whole, Rect.mem_set_unit]
  exact Iff.rfl

/-- Every entry of the result lies in the block of a writing point. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 128 := N_0
  obtain ⟨n, hn, h7, hr, hc⟩ : ∃ n, n < 128 ∧ n % 8 = 7 ∧ n / 16 = (i 0).val / 1024 ∧ n / 8 % 2 = (i 1).val / 2048 :=
    ⟨16 * ((i 0).val / 1024) + 8 * ((i 1).val / 2048) + 7, by omega, by omega, by omega, by omega⟩
  refine ⟨⟨n, by omega⟩, (flush0_2 _).mpr h7, ?_⟩
  rw [mem_block]
  obtain ⟨e0, e1⟩ := Blocks.index_out ⟨n, by omega⟩
  intro a
  match a with
  | ⟨0, _⟩ =>
    show win0_2.index ⟨n, _⟩ (0 : Fin 2) * 1024 ≤ (i 0).val ∧ (i 0).val < win0_2.index ⟨n, _⟩ (0 : Fin 2) * 1024 + 1024
    rw [e0]
    show n / 16 * 1024 ≤ (i 0).val ∧ (i 0).val < n / 16 * 1024 + 1024
    omega
  | ⟨1, _⟩ =>
    show win0_2.index ⟨n, _⟩ (1 : Fin 2) * 2048 ≤ (i 1).val ∧ (i 1).val < win0_2.index ⟨n, _⟩ (1 : Fin 2) * 2048 + 2048
    rw [e1]
    show n / 8 % 2 * 2048 ≤ (i 1).val ∧ (i 1).val < n / 8 % 2 * 2048 + 2048
    omega

/-- So the result array ends holding `result`. -/
theorem final (c : Dev nD) : (dats m 0 c).arrAt 2 cfg0.N = result m c :=
  (dats m 0 c).arrAt_eq_of_cover 2 (result m c) (flushed_eq m c) cover

end Cert.KernelIdeal.Region

end
-- ==== Proof.Around.lean ====
/-
  The host operations around the region, and the whole program's result. Before the region the activations
  [4, 2048, 4096] are reshaped to [8192, 4096] (row `2048 b + s` is row (b, s)), and the weights are quantized
  — the mean of their absolute values gives a scale α, an entry above α/2 becomes α, one below −α/2 becomes
  −α, the rest 0 — and then change float format, which is the identity on extended reals. After the region
  the [8192, 4096] result is reshaped back to [4, 2048, 4096]. So entry (b, s, o) of the program's result is
      ∑ k < 4096, x (b, s, k) · q (o, k)
  with q the quantized weights: the contraction the reference's one `dot_general` states. The quantization is
  the same sequence of host operations in both programs and is never opened.
-/
import proofs.«167173_j36283883716713_2_alg».proof.Proof.Region
import proofs.«167173_j36283883716713_2_alg».proof.Proof.Gen.ReferenceIdeal.Read
import Idealize.ShloMosaic.Lib.StableHlo.Run

noncomputable section

open Idealize.ShloMosaic Idealize.ShloMosaic.TcCoe Idealize.SL.Sem
open Idealize.ShloMosaic.Pipeline (Dat)

namespace Cert.KernelIdeal.Around

open Cert.KernelIdeal Cert.KernelIdeal.Gen Idealize.ShloMosaic.ValueIdx Cert.Spec Cert.KernelIdeal.Accum Cert.KernelIdeal.Region
open Idealize.ShloMosaic.StableHlo

variable (m : (ℓ : Loc nD τ sig) → Buf (Elt Ideal) ℓ)

/-- The quantized weights, as the reference's own stage computes them from the weight argument. -/
abbrev quant (w : S4096x4096.Idx → EReal) : S4096x4096.Idx → EReal :=
  Cert.ReferenceIdeal.Read.val_main_v12 (F := Ideal) w

/-- The first operand array the region finds is the activations reshaped. -/
theorem lhs_eq (c : Dev nD) :
    lhs m c = shapeCast S8192x4096 (m ((c : Thread nD τ).loc main_arg0)) shapeCasts_S4x2048x4096_S8192x4096 := by
  show (V m c main_v0 : S8192x4096.Idx → EReal) = _
  dsimp only [V, V0]
  simp only [hostOps0, hostOps0_1, hostOps0_2, hostOps0_3, List.flatten_cons, List.flatten_nil, List.append_nil, List.cons_append, List.nil_append]
  after_results
  rfl

set_option maxHeartbeats 4000000 in
/-- The second is the quantized weights (their change of float format is the identity). -/
theorem rhs_eq (c : Dev nD) :
    rhs m c = quant (m ((c : Thread nD τ).loc main_arg1)) := by
  show (V m c main_v14 : S4096x4096.Idx → EReal) = _
  dsimp only [V, V0]
  simp only [hostOps0, hostOps0_1, hostOps0_2, hostOps0_3, List.flatten_cons, List.flatten_nil, List.append_nil, List.cons_append, List.nil_append]
  after_results
  rfl

/-- The program's result buffer is the region's result array reshaped. -/
theorem tail_eq (c : Dev nD) :
    Pipeline.afterTail₀ cfgs (dats m) 0 (V0 m) [hostOps1] c main_v16
      = shapeCast S4x2048x4096 (result m c) shapeCasts_S8192x4096_S4x2048x4096 := by
  unfold Pipeline.afterTail₀
  show StableHlo.after hostOps1 _ (Proc.devRef .tc main_v16) = _
  after_results
  have e : Pipeline.withArrays (cfgs 0).spec c (V0 m c) (fun w => (dats m 0 c).arrAt w (cfgs 0).N) (Proc.devRef .tc main_v15)
      = result m c :=
    (Pipeline.withArrays_arr spec0 launch0.win.arr_inj c (V0 m c) (fun w => (dats m 0 c).arrAt w cfg0.N) 2).trans (final m c)
  rw [e]
  rfl

/-- Entry (b, s, o) of the program's result is the reference's contraction of activation row (b, s) with
    quantized-weight row o. -/
theorem value_apply (c : Dev nD) (j : S4x2048x4096.Idx) :
    shapeCast S4x2048x4096 (result m c) shapeCasts_S8192x4096_S4x2048x4096 j
      = Cert.ReferenceIdeal.Read.val_main_v13 (F := Ideal) (m ((c : Thread nD τ).loc main_arg0)) (m ((c : Thread nD τ).loc main_arg1)) j := by
  have hj0 : (j 0).val < 4 := (j 0).isLt
  have hj1 : (j 1).val < 2048 := (j 1).isLt
  have hj2 : (j 2).val < 4096 := (j 2).isLt
  rw [shapeCast_apply (result m c) shapeCasts_S8192x4096_S4x2048x4096 j
    (ix2 ⟨2048 * (j 0).val + (j 1).val, by omega⟩ ⟨(j 2).val, hj2⟩)
    (by rw [Shape.rowMajor_val_two, Shape.rowMajor_val_three]
        show (2048 * (j 0).val + (j 1).val) * 4096 + (j 2).val = ((j 0).val * 2048 + (j 1).val) * 4096 + (j 2).val
        omega)]
  rw [Cert.ReferenceIdeal.Read.val_main_v13_apply]
  show full (lhs m c) (rhs m c) (2048 * (j 0).val + (j 1).val) (j 2).val = _
  unfold full
  refine Finset.sum_congr rfl fun k _ => ?_
  have hk : k.val < 4096 := k.isLt
  refine congrArg₂ (· * ·) ?_ ?_
  · rw [lhs_eq]
    refine shapeCast_apply _ shapeCasts_S4x2048x4096_S8192x4096 _ (Cert.ReferenceIdeal.Read.lidx_main_v13 j k) ?_
    rw [Shape.rowMajor_val_two, Shape.rowMajor_val_three]
    show ((j 0).val * 2048 + (j 1).val) * 4096 + k.val = (2048 * (j 0).val + (j 1).val) % 8192 * 4096 + k.val
    omega
  · rw [rhs_eq]
    refine congrArg (quant (m ((c : Thread nD τ).loc main_arg1))) (funext fun a => Fin.ext ?_)
    match a with
    | ⟨0, _⟩ => show (j 2).val % 4096 = (j 2).val; omega
    | ⟨1, _⟩ => rfl

/-- The program's result buffer, as a function of its two arguments. -/
theorem value (c : Dev nD) :
    Pipeline.afterTail₀ cfgs (dats m) 0 (V0 m) [hostOps1] c main_v16
      = Cert.ReferenceIdeal.Read.val_main_v13 (F := Ideal) (m ((c : Thread nD τ).loc main_arg0)) (m ((c : Thread nD τ).loc main_arg1)) :=
  (tail_eq m c).trans (funext fun j => value_apply m c j)

/-- Every weakly fair execution of the program terminates with its result buffer at that function of the
    arguments and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v16)
        = Cert.ReferenceIdeal.Read.val_main_v13 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v16 (Pipeline.mem_restRefs_of main_v16 (by decide) (by decide))).trans (value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Around

end
-- ==== Proof.lean ====
/-
  The kernel's result equals its reference over the extended reals.

  Both programs quantize the [4096, 4096] weights in the same way (a scale from the mean absolute value, a
  threshold at half the scale, entries mapped to plus or minus the scale or zero) and contract the last axis of
  the activations x [4, 2048, 4096] with the last axis of the quantized weights q: entry (b, s, o) of the result
  is  ∑ k < 4096, x (b, s, k) · q (o, k).  The reference does so in one contraction. The kernel reshapes x to
  [8192, 4096], tiles the result into 8 × 2 blocks of [1024, 2048] and, for each block, walks the contracted
  axis in eight steps of 512 positions, adding each step's partial product to an accumulator that starts at
  zero and is copied out after the last step; its changes of float format are the identity on extended reals.
  The two agree because a finite sum of extended reals may be regrouped into consecutive runs: addition is
  commutative and associative at the infinities too, so the inputs' finiteness is never used.

  Modules: Spec (the regrouping of the sum), Pieces (what one grid point's stores leave), Payload (one step's
  arithmetic at an entry), Blocks (where a block sits in its array), Accum (the accumulator after each point,
  by induction on the point), Region (the region's result array), Around (the host operations around the
  region and the run). The frames are the generated ones; the idealization rewrote nothing.
-/
import proofs.«167173_j36283883716713_2_alg».proof.Defs
import proofs.«167173_j36283883716713_2_alg».proof.Proof.Gen.Kernel
import proofs.«167173_j36283883716713_2_alg».proof.Proof.Gen.Kernel.Frame
import proofs.«167173_j36283883716713_2_alg».proof.Proof.Gen.KernelIdeal
import proofs.«167173_j36283883716713_2_alg».proof.Proof.Gen.KernelIdeal.Frame
import proofs.«167173_j36283883716713_2_alg».proof.Proof.Gen.ReferenceIdeal
import proofs.«167173_j36283883716713_2_alg».proof.Proof.Gen.ReferenceIdeal.Run
import proofs.«167173_j36283883716713_2_alg».proof.Proof.Gen.ReferenceIdeal.Read
import proofs.«167173_j36283883716713_2_alg».proof.Proof.Gen.Pre_finite_inputs
import proofs.«167173_j36283883716713_2_alg».proof.Proof.Around
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the contraction of the activations with the quantized weights, entry by entry, of
    arguments that agree. -/
theorem algebraic : Cert.algebraic_KernelIdeal_ReferenceIdeal := by
  intro m ρ m' ρ' _ hagree
  refine ⟨fun c => Cert.ReferenceIdeal.Read.val_main_v13 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Around.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
